-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x2 : Shape := ⟨3, ![16384, 2, 2]⟩
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : IVec S16384x2x2 32) (main_arg1 : FVec F S16384x3 .f32) : IVec S_ 1 :=
  let main_v0 : FVec F S16384x3 .f32 := Host.absf main_arg1
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  main_v3
-- ==== Kernel.lean ====
abbrev S16384x2x2 : Shape := ⟨3, ![16384, 2, 2]⟩
abbrev S16384x3 : Shape := ⟨2, ![16384, 3]⟩
abbrev S216 : Shape := ⟨1, ![216]⟩
abbrev S1x16384x1x3 : Shape := ⟨4, ![1, 16384, 1, 3]⟩
abbrev S1x16384x72x3 : Shape := ⟨4, ![1, 16384, 72, 3]⟩
abbrev S16384x216 : Shape := ⟨2, ![16384, 216]⟩
abbrev S1x216 : Shape := ⟨2, ![1, 216]⟩
abbrev S16384x72x216 : Shape := ⟨3, ![16384, 72, 216]⟩
abbrev S64x2x2 : Shape := ⟨3, ![64, 2, 2]⟩
abbrev S64x216 : Shape := ⟨2, ![64, 216]⟩
abbrev S64x72x216 : Shape := ⟨3, ![64, 72, 216]⟩
abbrev S64x1x1 : Shape := ⟨3, ![64, 1, 1]⟩
abbrev S64 : Shape := ⟨1, ![64]⟩
abbrev S1x1x216 : Shape := ⟨3, ![1, 1, 216]⟩
abbrev S64x1x216 : Shape := ⟨3, ![64, 1, 216]⟩
abbrev S16384x72x72x3 : Shape := ⟨4, ![16384, 72, 72, 3]⟩

abbrev nBuf : Space → Nat
  | .hbm => 9
  | .vmem => 7
  | .smem => 0
  | _ => 0

abbrev bufTy : (tb : Table) → Fin (tcTables nBuf tb) → BufTy
  | .hbm, ⟨0, _⟩ => ⟨S16384x2x2, .i32⟩
  | .hbm, ⟨1, _⟩ => ⟨S16384x3, .f32⟩
  | .hbm, ⟨2, _⟩ => ⟨S216, .i32⟩
  | .hbm, ⟨3, _⟩ => ⟨S1x16384x1x3, .f32⟩
  | .hbm, ⟨4, _⟩ => ⟨S1x16384x72x3, .f32⟩
  | .hbm, ⟨5, _⟩ => ⟨S16384x216, .f32⟩
  | .hbm, ⟨6, _⟩ => ⟨S1x216, .i32⟩
  | .hbm, ⟨7, _⟩ => ⟨S16384x72x216, .f32⟩
  | .hbm, ⟨8, _⟩ => ⟨S16384x72x72x3, .f32⟩
  | .local _ .vmem, ⟨0, _⟩ => ⟨S64x2x2, .i32⟩
  | .local _ .vmem, ⟨1, _⟩ => ⟨S64x2x2, .i32⟩
  | .local _ .vmem, ⟨2, _⟩ => ⟨S64x216, .f32⟩
  | .local _ .vmem, ⟨3, _⟩ => ⟨S64x216, .f32⟩
  | .local _ .vmem, ⟨4, _⟩ => ⟨S1x216, .i32⟩
  | .local _ .vmem, ⟨5, _⟩ => ⟨S64x72x216, .f32⟩
  | .local _ .vmem, ⟨6, _⟩ => ⟨S64x72x216, .f32⟩
  | _, _ => ⟨S16384x2x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x216 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x72x216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384x3_S1x16384x1x3 : S16384x3.ShapeCasts S1x16384x1x3
  bcast_S1x16384x1x3_S1x16384x72x3_0_1_2_3 : S1x16384x1x3.BroadcastsInDim S1x16384x72x3 (![0, 1, 2, 3] : Fin 4 → Fin S1x16384x72x3.rank)
  shapeCasts_S1x16384x72x3_S16384x216 : S1x16384x72x3.ShapeCasts S16384x216
  shapeCasts_S216_S1x216 : S216.ShapeCasts S1x216
  inb_S64x2x2_S64x2x2_0_0_0 : ∀ a, (![0, 0, 0] : Fin 3 → Nat) a + S64x2x2.size a ≤ S64x2x2.size a
  h_S64x2x2 : 0 < S64x2x2.numel
  slices_S64x2x2_o0_0_0_S64x1x1 : S64x2x2.Slices ![0, 0, 0] S64x1x1
  shapeCasts_S64x1x1_S64 : S64x1x1.ShapeCasts S64
  slices_S64x2x2_o0_0_1_S64x1x1 : S64x2x2.Slices ![0, 0, 1] S64x1x1
  slices_S64x2x2_o0_1_0_S64x1x1 : S64x2x2.Slices ![0, 1, 0] S64x1x1
  slices_S64x2x2_o0_1_1_S64x1x1 : S64x2x2.Slices ![0, 1, 1] S64x1x1
  iota_S64x72x216_d1_w32 : S64x72x216.Iotas .tc 32 [1]
  inb_S1x216_S1x216_0_0 : ∀ a, (![0, 0] : Fin 2 → Nat) a + S1x216.size a ≤ S1x216.size a
  h_S1x216 : 0 < S1x216.numel
  shapeCasts_S1x216_S1x216 : S1x216.ShapeCasts S1x216
  shapeCasts_S1x216_S1x1x216 : S1x216.ShapeCasts S1x1x216
  shapeCasts_S1x1x216_S1x1x216 : S1x1x216.ShapeCasts S1x1x216
  broadcasts_S1x1x216_S64x72x216 : S1x1x216.Broadcasts S64x72x216
  shapeCasts_S64_S64x1x1 : S64.ShapeCasts S64x1x1
  broadcasts_S64x1x1_S64x72x216 : S64x1x1.Broadcasts S64x72x216
  inb_S64x216_S64x216_0_0 : ∀ a, (![0, 0] : Fin 2 → Nat) a + S64x216.size a ≤ S64x216.size a
  h_S64x216 : 0 < S64x216.numel
  shapeCasts_S64x216_S64x1x216 : S64x216.ShapeCasts S64x1x216
  shapeCasts_S64x1x216_S64x1x216 : S64x1x216.ShapeCasts S64x1x216
  broadcasts_S64x1x216_S64x72x216 : S64x1x216.Broadcasts S64x72x216
  inb_S64x72x216_S64x72x216_0_0_0 : ∀ a, (![0, 0, 0] : Fin 3 → Nat) a + S64x72x216.size a ≤ S64x72x216.size a
  h_S64x72x216 : 0 < S64x72x216.numel
  shapeCasts_S16384x72x216_S16384x72x72x3 : S16384x72x216.ShapeCasts S16384x72x72x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2x2.size a ≤ S16384x2x2.size a
  hwx0_0 : ∀ i : grid0.Coords, EltTy.bits .i32 = 32 ∨ (Rect.block (s := S16384x2x2) S64x2x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x216.size a ≤ S16384x216.size a
  hwx0_1 : ∀ i : grid0.Coords, EltTy.bits .f32 = 32 ∨ (Rect.block (s := S16384x216) S64x216.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x216.size a ≤ S1x216.size a
  hwx0_2 : ∀ i : grid0.Coords, EltTy.bits .i32 = 32 ∨ (Rect.block (s := S1x216) S1x216.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x72x216.size a ≤ S16384x72x216.size a
  hwx0_3 : ∀ i : grid0.Coords, EltTy.bits .f32 = 32 ∨ (Rect.block (s := S16384x72x216) S64x72x216.size (cc0_transform_3 i) (hinb0_3 i)).WholeWords (EltTy.packing .f32)

variable [Facts₀]

abbrev win0_0 : Pipeline.Window sig grid0 :=
  Pipeline.Window.ofSpec (Memref.whole main_arg0) S64x2x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x216.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x216.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x72x216.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2x2 : Shape := ⟨3, ![16384, 2, 2]⟩
abbrev S16384x3 : Shape := ⟨2, ![16384, 3]⟩
abbrev S16384x1x2 : Shape := ⟨3, ![16384, 1, 2]⟩
abbrev S16384x2 : Shape := ⟨2, ![16384, 2]⟩
abbrev S72 : Shape := ⟨1, ![72]⟩
abbrev S1x72 : Shape := ⟨2, ![1, 72]⟩
abbrev S16384x1 : Shape := ⟨2, ![16384, 1]⟩
abbrev S16384x72 : Shape := ⟨2, ![16384, 72]⟩
abbrev S16384x72x1 : Shape := ⟨3, ![16384, 72, 1]⟩
abbrev S16384x1x72 : Shape := ⟨3, ![16384, 1, 72]⟩
abbrev S16384x72x72 : Shape := ⟨3, ![16384, 72, 72]⟩
abbrev S16384x72x72x1 : Shape := ⟨4, ![16384, 72, 72, 1]⟩
abbrev S16384x1x1x3 : Shape := ⟨4, ![16384, 1, 1, 3]⟩
abbrev S_ : Shape := ⟨0, ![]⟩
abbrev S16384x72x72x3 : Shape := ⟨4, ![16384, 72, 72, 3]⟩

abbrev nBuf : Space → Nat
  | .hbm => 41
  | .vmem => 0
  | .smem => 0
  | _ => 0

abbrev bufTy : (tb : Table) → Fin (tcTables nBuf tb) → BufTy
  | .hbm, ⟨0, _⟩ => ⟨S16384x2x2, .i32⟩
  | .hbm, ⟨1, _⟩ => ⟨S16384x3, .f32⟩
  | .hbm, ⟨2, _⟩ => ⟨S16384x1x2, .i32⟩
  | .hbm, ⟨3, _⟩ => ⟨S16384x2, .i32⟩
  | .hbm, ⟨4, _⟩ => ⟨S16384x1x2, .i32⟩
  | .hbm, ⟨5, _⟩ => ⟨S16384x2, .i32⟩
  | .hbm, ⟨6, _⟩ => ⟨S72, .i32⟩
  | .hbm, ⟨7, _⟩ => ⟨S1x72, .i32⟩
  | .hbm, ⟨8, _⟩ => ⟨S16384x1, .i32⟩
  | .hbm, ⟨9, _⟩ => ⟨S16384x72, .i32⟩
  | .hbm, ⟨10, _⟩ => ⟨S16384x72, .i32⟩
  | .hbm, ⟨11, _⟩ => ⟨S16384x72, .i1⟩
  | .hbm, ⟨12, _⟩ => ⟨S1x72, .i32⟩
  | .hbm, ⟨13, _⟩ => ⟨S16384x1, .i32⟩
  | .hbm, ⟨14, _⟩ => ⟨S16384x72, .i32⟩
  | .hbm, ⟨15, _⟩ => ⟨S16384x72, .i32⟩
  | .hbm, ⟨16, _⟩ => ⟨S16384x72, .i1⟩
  | .hbm, ⟨17, _⟩ => ⟨S16384x72, .i1⟩
  | .hbm, ⟨18, _⟩ => ⟨S1x72, .i32⟩
  | .hbm, ⟨19, _⟩ => ⟨S16384x1, .i32⟩
  | .hbm, ⟨20, _⟩ => ⟨S16384x72, .i32⟩
  | .hbm, ⟨21, _⟩ => ⟨S16384x72, .i32⟩
  | .hbm, ⟨22, _⟩ => ⟨S16384x72, .i1⟩
  | .hbm, ⟨23, _⟩ => ⟨S1x72, .i32⟩
  | .hbm, ⟨24, _⟩ => ⟨S16384x1, .i32⟩
  | .hbm, ⟨25, _⟩ => ⟨S16384x72, .i32⟩
  | .hbm, ⟨26, _⟩ => ⟨S16384x72, .i32⟩
  | .hbm, ⟨27, _⟩ => ⟨S16384x72, .i1⟩
  | .hbm, ⟨28, _⟩ => ⟨S16384x72, .i1⟩
  | .hbm, ⟨29, _⟩ => ⟨S16384x72x1, .i1⟩
  | .hbm, ⟨30, _⟩ => ⟨S16384x1x72, .i1⟩
  | .hbm, ⟨31, _⟩ => ⟨S16384x72x72, .i1⟩
  | .hbm, ⟨32, _⟩ => ⟨S16384x72x72, .i1⟩
  | .hbm, ⟨33, _⟩ => ⟨S16384x72x72, .i1⟩
  | .hbm, ⟨34, _⟩ => ⟨S16384x72x72x1, .i1⟩
  | .hbm, ⟨35, _⟩ => ⟨S16384x1x1x3, .f32⟩
  | .hbm, ⟨36, _⟩ => ⟨S_, .f32⟩
  | .hbm, ⟨37, _⟩ => ⟨S16384x72x72x3, .i1⟩
  | .hbm, ⟨38, _⟩ => ⟨S16384x72x72x3, .f32⟩
  | .hbm, ⟨39, _⟩ => ⟨S16384x72x72x3, .f32⟩
  | .hbm, ⟨40, _⟩ => ⟨S16384x72x72x3, .f32⟩
  | _, _ => ⟨S16384x2x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v34 : Ref sig .tc := ⟨.hbm, 40, rfl⟩

abbrev nD : Nat := 1
abbrev τ : Topo := Topo.v7x

variable {F : FTy → Type} [FloatOps F]

class Facts₀ : Prop where
  slices_S16384x2x2_S16384x1x2_0_0_0 : S16384x2x2.Slices ![0, 0, 0] S16384x1x2
  shapeCasts_S16384x1x2_S16384x2 : S16384x1x2.ShapeCasts S16384x2
  slices_S16384x2x2_S16384x1x2_0_1_0 : S16384x2x2.Slices ![0, 1, 0] S16384x1x2
  bcast_S72_S1x72_1 : S72.BroadcastsInDim S1x72 (![1] : Fin 1 → Fin S1x72.rank)
  slices_S16384x2_S16384x1_0_0 : S16384x2.Slices ![0, 0] S16384x1
  bcast_S1x72_S16384x72_0_1 : S1x72.BroadcastsInDim S16384x72 (![0, 1] : Fin 2 → Fin S16384x72.rank)
  bcast_S16384x1_S16384x72_0_1 : S16384x1.BroadcastsInDim S16384x72 (![0, 1] : Fin 2 → Fin S16384x72.rank)
  slices_S16384x2_S16384x1_0_1 : S16384x2.Slices ![0, 1] S16384x1
  bcast_S16384x72_S16384x72x1_0_1 : S16384x72.BroadcastsInDim S16384x72x1 (![0, 1] : Fin 2 → Fin S16384x72x1.rank)
  bcast_S16384x72_S16384x1x72_0_2 : S16384x72.BroadcastsInDim S16384x1x72 (![0, 2] : Fin 2 → Fin S16384x1x72.rank)
  bcast_S16384x72x1_S16384x72x72_0_1_2 : S16384x72x1.BroadcastsInDim S16384x72x72 (![0, 1, 2] : Fin 3 → Fin S16384x72x72.rank)
  bcast_S16384x1x72_S16384x72x72_0_1_2 : S16384x1x72.BroadcastsInDim S16384x72x72 (![0, 1, 2] : Fin 3 → Fin S16384x72x72.rank)
  bcast_S16384x72x72_S16384x72x72x1_0_1_2 : S16384x72x72.BroadcastsInDim S16384x72x72x1 (![0, 1, 2] : Fin 3 → Fin S16384x72x72x1.rank)
  bcast_S16384x3_S16384x1x1x3_0_3 : S16384x3.BroadcastsInDim S16384x1x1x3 (![0, 3] : Fin 2 → Fin S16384x1x1x3.rank)
  bcast_S16384x72x72x1_S16384x72x72x3_0_1_2_3 : S16384x72x72x1.BroadcastsInDim S16384x72x72x3 (![0, 1, 2, 3] : Fin 4 → Fin S16384x72x72x3.rank)
  bcast_S16384x1x1x3_S16384x72x72x3_0_1_2_3 : S16384x1x1x3.BroadcastsInDim S16384x72x72x3 (![0, 1, 2, 3] : Fin 4 → Fin S16384x72x72x3.rank)
  bcast_S_S16384x72x72x3 : S_.BroadcastsInDim S16384x72x72x3 (![] : Fin 0 → Fin S16384x72x72x3.rank)

variable [Facts₀]

class Facts : Prop extends Facts₀ where

variable [Facts]
-- ==== Proof.LibUnitAxisLayout.lean ====
/-
  Layout operations of rank-3 arrays with unit axes, read at an index given by coordinates.

  A value that depends on fewer coordinates than the array it is combined with is carried as an
  array with unit axes and broadcast: a per-sample scalar as [a, 1, 1], a per-lane row as [1, 1, c],
  a per-sample row of lanes as [a, 1, c], each broadcast to [a, b, c]. Reading the broadcast at
  (p, q, r) reads the operand at the coordinates it has, and 0 on its unit axes. The casts that
  insert the middle unit axis, and the slice that picks one entry (k1, k2) of every sample's small
  matrix as an [a, 1, 1] column, are read the same way. Every lemma is the general statement of the
  operation at an index with the two indices written out coordinate by coordinate.
-/
import Idealize.ShloMosaic.Lib.Pipeline.Value
import Idealize.ShloMosaic.Lib.ValueIdx

namespace Idealize.ShloMosaic.UnitAxisLayout

open Idealize.ShloMosaic Idealize.ShloMosaic.ValueIdx

variable {α : Type}

/-! ## Broadcasts to [a, b, c] -/

/-- An [a, 1, 1] column broadcast to [a, b, c] reads, at (p, q, r), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row broadcast to [a, b, c] reads, at (p, q, r), the row's entry r. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, 1, c] slab broadcast to [a, b, c] reads, at (p, q, r), the slab's entry (p, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## The cast that inserts a middle unit axis -/

/-- An [a, c] matrix cast to [a, 1, c] reads, at (p, u, r), the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## One entry of every sample's small matrix, as a column -/

/-- The unit-size slice of an [a, n1, n2] array at offsets (0, o1, o2) is the [a, 1, 1] column of the
    entries (k1, k2) = (o1, o2): at (p, 0, 0) it reads the array at (p, k1, k2). -/
theorem slice_entry_apply {a n1 n2 : ℕ} (o1 o2 : ℕ) (x : (⟨3, ![a, n1, n2]⟩ : Shape).Idx → α)
    (h : (⟨3, ![a, n1, n2]⟩ : Shape).Slices ![0, o1, o2] ⟨3, ![a, 1, 1]⟩) (p : Fin a) (u v : Fin 1)
    (k1 : Fin n1) (k2 : Fin n2) (hk1 : k1.val = o1) (hk2 : k2.val = o2) :
    extractStridedSlice ⟨3, ![a, 1, 1]⟩ ![0, o1, o2] x h (ix3 p u v) = x (ix3 p k1 k2) := by
  refine extractStridedSlice_apply ![0, o1, o2] x h (ix3 p u v) (ix3 p k1 k2) fun ax => ?_
  have hu : u.val = 0 := by omega
  have hv : v.val = 0 := by omega
  match ax with
  | ⟨0, _⟩ => show p.val = 0 + p.val; omega
  | ⟨1, _⟩ => show k1.val = o1 + u.val; omega
  | ⟨2, _⟩ => show k2.val = o2 + v.val; omega

/-- The same entry carried through the flattening [a, 1, 1] → [a] → [a, 1, 1] and broadcast to
    [a, b, c]: at (p, q, r) it is the array's entry (p, k1, k2). -/
theorem broadcast_entry_apply {a n1 n2 b c : ℕ} (o1 o2 : ℕ) (x : (⟨3, ![a, n1, n2]⟩ : Shape).Idx → α)
    (hs : (⟨3, ![a, n1, n2]⟩ : Shape).Slices ![0, o1, o2] ⟨3, ![a, 1, 1]⟩)
    (h1 : (⟨3, ![a, 1, 1]⟩ : Shape).ShapeCasts ⟨1, ![a]⟩) (h2 : (⟨1, ![a]⟩ : Shape).ShapeCasts ⟨3, ![a, 1, 1]⟩)
    (hb : (⟨3, ![a, 1, 1]⟩ : Shape).Broadcasts ⟨3, ![a, b, c]⟩) (p : Fin a) (q : Fin b) (r : Fin c)
    (k1 : Fin n1) (k2 : Fin n2) (hk1 : k1.val = o1) (hk2 : k2.val = o2) :
    broadcastTo ⟨3, ![a, b, c]⟩
        (shapeCast ⟨3, ![a, 1, 1]⟩ (shapeCast ⟨1, ![a]⟩ (extractStridedSlice ⟨3, ![a, 1, 1]⟩ ![0, o1, o2] x hs) h1) h2) hb
        (ix3 p q r)
      = x (ix3 p k1 k2) := by
  rw [broadcastTo_a11_abc_apply, shapeCast_shapeCast]
  exact slice_entry_apply o1 o2 x hs p 0 0 k1 k2 hk1 hk2

end Idealize.ShloMosaic.UnitAxisLayout
-- ==== Proof.PasteSpec.lean ====
/-
  The pasted image, as one function of the two argument arrays.

  Sample b of the batch carries a rectangle, given by its top-left corner (tl_r, tl_c) and its
  bottom-right corner (br_r, br_c) — the four 32-bit words pos[b, 0, 0], pos[b, 0, 1], pos[b, 1, 0],
  pos[b, 1, 1] — and a colour, the three floats colors[b, ·]. The image of sample b is the 72 × 72
  canvas that holds the colour's channel ch at pixel (r, q) when tl_r ≤ r < br_r and tl_c ≤ q < br_c
  (signed comparisons of 32-bit words) and the background value 255 everywhere else. No arithmetic
  is done on the floats: an element of the result is either an element of `colors` or the constant.

  `cell` is one pixel from the four corner words, the pixel's row and column as words, and the
  colour. `canvas` is the result array [16384, 72, 72, 3]. `lanes` is the same picture with the
  column and the channel merged into one axis of 216 lanes, lane l = 3 q + ch, where the column of a
  lane is looked up in a table and the colour has been laid out lane by lane beforehand.
-/
import Idealize.ShloMosaic.PureOps
import Idealize.ShloMosaic.Lib.ValueIdx

noncomputable section

namespace Cert.Paste

open Idealize.ShloMosaic Idealize.ShloMosaic.ValueIdx

variable {F : FTy → Type} [FloatOps F]

/-- One pixel: the colour inside the rectangle (rows tlr ≤ row < brr, columns tlc ≤ col < brc, compared
    as signed words), the background 255.0 outside. -/
def cell (tlr brr tlc brc row col : BitVec 32) (color : F .f32) : F .f32 :=
  Scalar.select
    (IntOp.andi (IntOp.andi (IntOp.cmpi .sge row tlr) (IntOp.cmpi .slt row brr))
      (IntOp.andi (IntOp.cmpi .sge col tlc) (IntOp.cmpi .slt col brc)))
    color (FloatOps.ofBits .f32 0x437F0000#32)

/-- Pixel (r, q), channel ch, of sample b. -/
def canvasAt (pos : (⟨3, ![16384, 2, 2]⟩ : Shape).Idx → BitVec 32) (colors : (⟨2, ![16384, 3]⟩ : Shape).Idx → F .f32)
    (b : Fin 16384) (r q : Fin 72) (ch : Fin 3) : F .f32 :=
  cell (pos (ix3 b (0 : Fin 2) (0 : Fin 2))) (pos (ix3 b (1 : Fin 2) (0 : Fin 2)))
    (pos (ix3 b (0 : Fin 2) (1 : Fin 2))) (pos (ix3 b (1 : Fin 2) (1 : Fin 2)))
    (BitVec.ofNat 32 r.val) (BitVec.ofNat 32 q.val) (colors (ix2 b ch))

/-- The whole result [16384, 72, 72, 3]. -/
def canvas (pos : (⟨3, ![16384, 2, 2]⟩ : Shape).Idx → BitVec 32) (colors : (⟨2, ![16384, 3]⟩ : Shape).Idx → F .f32) :
    (⟨4, ![16384, 72, 72, 3]⟩ : Shape).Idx → F .f32 :=
  fun i => canvasAt pos colors (i 0) (i 1) (i 2) (i 3)

theorem canvas_ix4 (pos : (⟨3, ![16384, 2, 2]⟩ : Shape).Idx → BitVec 32) (colors : (⟨2, ![16384, 3]⟩ : Shape).Idx → F .f32)
    (b : Fin 16384) (r q : Fin 72) (ch : Fin 3) : canvas pos colors (ix4 b r q ch) = canvasAt pos colors b r q ch := rfl

/-- Row r, lane l, of sample b, when the lane's column comes from the table `tab` and its colour from the
    lane-by-lane layout `tiled`. -/
def lanesAt (pos : (⟨3, ![16384, 2, 2]⟩ : Shape).Idx → BitVec 32) (tiled : (⟨2, ![16384, 216]⟩ : Shape).Idx → F .f32)
    (tab : (⟨2, ![1, 216]⟩ : Shape).Idx → BitVec 32) (b : Fin 16384) (r : Fin 72) (l : Fin 216) : F .f32 :=
  cell (pos (ix3 b (0 : Fin 2) (0 : Fin 2))) (pos (ix3 b (1 : Fin 2) (0 : Fin 2)))
    (pos (ix3 b (0 : Fin 2) (1 : Fin 2))) (pos (ix3 b (1 : Fin 2) (1 : Fin 2)))
    (BitVec.ofNat 32 r.val) (tab (ix2 (0 : Fin 1) l)) (tiled (ix2 b l))

/-- The lane-merged picture [16384, 72, 216]. -/
def lanes (pos : (⟨3, ![16384, 2, 2]⟩ : Shape).Idx → BitVec 32) (tiled : (⟨2, ![16384, 216]⟩ : Shape).Idx → F .f32)
    (tab : (⟨2, ![1, 216]⟩ : Shape).Idx → BitVec 32) : (⟨3, ![16384, 72, 216]⟩ : Shape).Idx → F .f32 :=
  fun i => lanesAt pos tiled tab (i 0) (i 1) (i 2)

theorem lanes_ix3 (pos : (⟨3, ![16384, 2, 2]⟩ : Shape).Idx → BitVec 32) (tiled : (⟨2, ![16384, 216]⟩ : Shape).Idx → F .f32)
    (tab : (⟨2, ![1, 216]⟩ : Shape).Idx → BitVec 32) (b : Fin 16384) (r : Fin 72) (l : Fin 216) :
    lanes pos tiled tab (ix3 b r l) = lanesAt pos tiled tab b r l := rfl

/-- When the table sends lane 3 q + ch to column q and the layout puts channel ch of the colour there, the
    lane-merged picture at that lane is the canvas at (r, q, ch). -/
theorem lanesAt_eq_canvasAt (pos : (⟨3, ![16384, 2, 2]⟩ : Shape).Idx → BitVec 32) (colors : (⟨2, ![16384, 3]⟩ : Shape).Idx → F .f32)
    (tiled : (⟨2, ![16384, 216]⟩ : Shape).Idx → F .f32) (tab : (⟨2, ![1, 216]⟩ : Shape).Idx → BitVec 32)
    (b : Fin 16384) (r q : Fin 72) (ch : Fin 3) (l : Fin 216)
    (htab : tab (ix2 (0 : Fin 1) l) = BitVec.ofNat 32 q.val) (htiled : tiled (ix2 b l) = colors (ix2 b ch)) :
    lanesAt pos tiled tab b r l = canvasAt pos colors b r q ch := by
  unfold lanesAt canvasAt
  rw [htab, htiled]

end Cert.Paste

end
-- ==== Proof.KernelCell.lean ====
/-
  The kernel body's stored value, one element at a time.

  At grid point t the body holds 64 samples: their corner words x0 [64, 2, 2], their colours laid out lane
  by lane x1 [64, 216], and the table x2 [1, 216] giving each lane's column. It stores a [64, 72, 216]
  block whose element (b, r, l) selects between the colour x1[b, l] and the background by the conjunction
  of four comparisons: the row r (an iota along axis 1) against the words x0[b, 0, 0] and x0[b, 1, 0], and
  the lane's column x2[0, l] against x0[b, 0, 1] and x0[b, 1, 1]. Each operand of the comparisons is a
  broadcast of an array with unit axes; read at (b, r, l) it is the entry named above. So the element is
  the pixel function `Paste.cell` of those entries.
-/
import proofs.«113027_j27650999451648_2_alg».proof.Proof.Gen.KernelIdeal.Skeleton
import proofs.«113027_j27650999451648_2_alg».proof.Proof.LibUnitAxisLayout
import proofs.«113027_j27650999451648_2_alg».proof.Proof.PasteSpec
import Idealize.ShloMosaic.Lib.ValueLayout

noncomputable section

namespace Cert.KernelIdeal.PasteValue

open Idealize.ShloMosaic Idealize.ShloMosaic.ValueIdx Idealize.ShloMosaic.UnitAxisLayout
open Cert.KernelIdeal Cert.KernelIdeal.Gen

variable {F : FTy → Type} [FloatOps F]

/-- The lane's column: the table row, cast to [1, 1, 216] and broadcast, read at (b, r, l) is the table at lane l. -/
theorem lane_column_apply (x2 : Vec F S1x216 .i32) (b : Fin 64) (r : Fin 72) (l : Fin 216) :
    broadcastTo S64x72x216
        (shapeCast S1x1x216 (shapeCast S1x1x216 (shapeCast S1x216 x2 shapeCasts_S1x216_S1x216) shapeCasts_S1x216_S1x1x216)
          shapeCasts_S1x1x216_S1x1x216)
        broadcasts_S1x1x216_S64x72x216 (ix3 b r l)
      = x2 (ix2 (0 : Fin 1) l) := by
  rw [broadcastTo_11c_abc_apply, shapeCast_self, shapeCast_self]
  exact shapeCast_ab_1ab_apply x2 shapeCasts_S1x216_S1x1x216 0 0 l

/-- The lane's colour: the [64, 216] colours, cast to [64, 1, 216] and broadcast over the rows, read at (b, r, l)
    is the colour of sample b at lane l. -/
theorem lane_colour_apply (x1 : Vec F S64x216 .f32) (b : Fin 64) (r : Fin 72) (l : Fin 216) :
    broadcastTo S64x72x216
        (shapeCast S64x1x216 (shapeCast S64x1x216 x1 shapeCasts_S64x216_S64x1x216) shapeCasts_S64x1x216_S64x1x216)
        broadcasts_S64x1x216_S64x72x216 (ix3 b r l)
      = x1 (ix2 b l) := by
  rw [broadcastTo_a1c_abc_apply, shapeCast_self]
  exact shapeCast_ac_a1c_apply x1 shapeCasts_S64x216_S64x1x216 b 0 l

/-- THE STORED ELEMENT (b, r, l): the pixel of sample b's corner words, row r, the lane's column and colour. -/
theorem pay_apply (x0 : Vec F S64x2x2 .i32) (x2 : Vec F S1x216 .i32) (x1 : Vec F S64x216 .f32)
    (b : Fin 64) (r : Fin 72) (l : Fin 216) :
    k0_pay1 x0 x2 x1 (ix3 b r l)
      = Paste.cell (x0 (ix3 b (0 : Fin 2) (0 : Fin 2))) (x0 (ix3 b (1 : Fin 2) (0 : Fin 2)))
          (x0 (ix3 b (0 : Fin 2) (1 : Fin 2))) (x0 (ix3 b (1 : Fin 2) (1 : Fin 2)))
          (BitVec.ofNat 32 r.val) (x2 (ix2 (0 : Fin 1) l)) (x1 (ix2 b l)) := by
  unfold k0_pay1 Paste.cell
  dsimp only [select, andi, cmpi, broadcast]
  rw [iota_single_apply, lane_column_apply, lane_colour_apply,
    broadcast_entry_apply 0 0 x0 _ _ _ _ b r l (0 : Fin 2) (0 : Fin 2) rfl rfl,
    broadcast_entry_apply 1 0 x0 _ _ _ _ b r l (1 : Fin 2) (0 : Fin 2) rfl rfl,
    broadcast_entry_apply 0 1 x0 _ _ _ _ b r l (0 : Fin 2) (1 : Fin 2) rfl rfl,
    broadcast_entry_apply 1 1 x0 _ _ _ _ b r l (1 : Fin 2) (1 : Fin 2) rfl rfl]

end Cert.KernelIdeal.PasteValue

end
-- ==== Proof.KernelBlocks.lean ====
/-
  From the blocks the grid points write back to the whole lane-merged array.

  Grid point t (of 256) works on the 64 samples 64 t … 64 t + 63: its corner-word block is rows
  64 t … of the [16384, 2, 2] argument, its colour block the same rows of the [16384, 216] lane layout,
  the table is its one whole block at every point, and the block it writes back is rows 64 t … of the
  [16384, 72, 216] result, all 72 × 216 of each. Element (b, r, l) of what the body stores is the pixel
  function of entries of sample b of the blocks, that is of sample 64 t + b of the arrays; so what point
  t writes back is its block of ONE function of the arrays, `Paste.lanes`. Row B of the result lies in
  the block of point B / 64, so the blocks cover the result, which therefore ends holding that function.
-/
import proofs.«113027_j27650999451648_2_alg».proof.Proof.Gen.KernelIdeal.Frame
import proofs.«113027_j27650999451648_2_alg».proof.Proof.KernelCell
import Idealize.ShloMosaic.Lib.Pipeline.Value

noncomputable section

namespace Cert.KernelIdeal.PasteValue

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices at point t: the three per-sample windows are at block t along the batch axis and block 0
    along every other axis; the table's window is always its block (0, 0). -/
theorem block_index : ∀ t : Fin cfg0.N,
    win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Sample b of point t's blocks is sample 64 t + b of the batch. -/
def sampleOf (t : Fin cfg0.N) (b : Fin 64) : Fin 16384 :=
  ⟨t.val * 64 + b.val, by have := t.isLt; have hN : cfg0.N = 256 := N_0; omega⟩

/-- Where element (b, r, l) of point t's output block sits in the result. -/
theorem out_emb (t : Fin cfg0.N) (b : Fin 64) (r : Fin 72) (l : Fin 216) :
    ((cfg0.win 3).blk t).view.emb (ix3 b r l) = (ix3 (sampleOf t b) r l : S16384x72x216.Idx) := by
  obtain ⟨e0, e1, e2, -⟩ := block_index t
  funext a; apply Fin.ext
  match a with
  | ⟨0, _⟩ => show win0_3.index t (0 : Fin 3) * 64 + 1 * b.val = t.val * 64 + b.val; rw [e0]; omega
  | ⟨1, _⟩ => show win0_3.index t (1 : Fin 3) * 72 + 1 * r.val = r.val; rw [e1]; omega
  | ⟨2, _⟩ => show win0_3.index t (2 : Fin 3) * 216 + 1 * l.val = l.val; rw [e2]; omega

/-- Entry (b, u, v) of point t's corner-word block is entry (64 t + b, u, v) of the array. -/
theorem pos_block (c : Dev nD) (t : Fin cfg0.N) (b : Fin 64) (u v : Fin 2) :
    (iblk m c 0 t : Vec F S64x2x2 .i32) (ix3 b u v)
      = (V m c main_arg0 : S16384x2x2.Idx → Elt F .i32) (ix3 (sampleOf t b) u v) := by
  show V m c main_arg0 (((cfg0.win 0).blk t).view.emb (ix3 b u v)) = V m c main_arg0 (ix3 (sampleOf t b) u v)
  have h : ((cfg0.win 0).blk t).view.emb (ix3 b u v) = (ix3 (sampleOf t b) u v : S16384x2x2.Idx) := by
    obtain ⟨-, -, -, e0, e1, e2, -⟩ := block_index t
    funext a; apply Fin.ext
    match a with
    | ⟨0, _⟩ => show win0_0.index t (0 : Fin 3) * 64 + 1 * b.val = t.val * 64 + b.val; rw [e0]; omega
    | ⟨1, _⟩ => show win0_0.index t (1 : Fin 3) * 2 + 1 * u.val = u.val; rw [e1]; omega
    | ⟨2, _⟩ => show win0_0.index t (2 : Fin 3) * 2 + 1 * v.val = v.val; rw [e2]; omega
  rw [h]

/-- Entry (b, l) of point t's colour block is entry (64 t + b, l) of the lane layout. -/
theorem colour_block (c : Dev nD) (t : Fin cfg0.N) (b : Fin 64) (l : Fin 216) :
    (iblk m c 1 t : Vec F S64x216 .f32) (ix2 b l)
      = (V m c main_v2 : S16384x216.Idx → Elt F .f32) (ix2 (sampleOf t b) l) := by
  show V m c main_v2 (((cfg0.win 1).blk t).view.emb (ix2 b l)) = V m c main_v2 (ix2 (sampleOf t b) l)
  have h : ((cfg0.win 1).blk t).view.emb (ix2 b l) = (ix2 (sampleOf t b) l : S16384x216.Idx) := by
    obtain ⟨-, -, -, -, -, -, e0, e1, -⟩ := block_index t
    funext a; apply Fin.ext
    match a with
    | ⟨0, _⟩ => show win0_1.index t (0 : Fin 2) * 64 + 1 * b.val = t.val * 64 + b.val; rw [e0]; omega
    | ⟨1, _⟩ => show win0_1.index t (1 : Fin 2) * 216 + 1 * l.val = l.val; rw [e1]; omega
  rw [h]

/-- The table's block at any point is the table. -/
theorem table_block (c : Dev nD) (t : Fin cfg0.N) (u : Fin 1) (l : Fin 216) :
    (iblk m c 2 t : Vec F S1x216 .i32) (ix2 u l)
      = (V m c main_v3 : S1x216.Idx → Elt F .i32) (ix2 u l) := by
  show V m c main_v3 (((cfg0.win 2).blk t).view.emb (ix2 u l)) = V m c main_v3 (ix2 u l)
  have h : ((cfg0.win 2).blk t).view.emb (ix2 u l) = (ix2 u l : S1x216.Idx) := by
    obtain ⟨-, -, -, -, -, -, -, -, e0, e1⟩ := block_index t
    funext a; apply Fin.ext
    match a with
    | ⟨0, _⟩ => show win0_2.index t (0 : Fin 2) * 1 + 1 * u.val = u.val; rw [e0]; omega
    | ⟨1, _⟩ => show win0_2.index t (1 : Fin 2) * 216 + 1 * l.val = l.val; rw [e1]; omega
  rw [h]

/-- WHAT POINT t WRITES BACK is block t of the lane-merged picture of the arrays as the region finds them. -/
theorem flushed_eq (c : Dev nD) (t : Fin cfg0.N) :
    (dats m 0 c).flushed 3 t
      = ((cfg0.win 3).blk t).view.read (Elt F)
          (Paste.lanes (F := F) (V m c main_arg0) (V m c main_v2) (V m c main_v3)) := by
  show (cfg0.win 3).cut (grid0.coords t) ((dats m 0 c).after 3 t) = _
  rw [after0_3]
  unfold out0_3
  rw [View.canon_unit_zero zero3]
  simp only [View.ld_unit_zero (S := S64x2x2) zero3, View.ld_unit_zero (S := S1x216) zero2,
    View.ld_unit_zero (S := S64x216) zero2]
  funext j
  obtain ⟨b, r, l, rfl⟩ : ∃ (b : Fin 64) (r : Fin 72) (l : Fin 216), j = ix3 b r l := ⟨j 0, j 1, j 2, eq_ix3 j⟩
  show k0_pay1 (iblk m c 0 t) (iblk m c 2 t) (iblk m c 1 t) (ix3 b r l)
    = Paste.lanes (F := F) (V m c main_arg0) (V m c main_v2) (V m c main_v3) (((cfg0.win 3).blk t).view.emb (ix3 b r l))
  have he := out_emb t b r l
  rw [he, Paste.lanes_ix3]
  refine (pay_apply (iblk m c 0 t) (iblk m c 2 t) (iblk m c 1 t) b r l).trans ?_
  unfold Paste.lanesAt
  rw [pos_block, pos_block, pos_block, pos_block, table_block, colour_block]

/-- An index of the result is in point t's block iff each coordinate is in the block's range on its axis. -/
theorem mem_block (t : Fin cfg0.N) (i : S16384x72x216.Idx) :
    i ∈ ((cfg0.win 3).blk t).view.set ↔ ∀ a : Fin 3, win0_3.index t a * S64x72x216.size a ≤ (i a).val
      ∧ (i a).val < win0_3.index t a * S64x72x216.size a + S64x72x216.size a := by
  show i ∈ ((View.whole main_v4).slice (win0_3.rect t)).set ↔ _
  rw [View.set_slice_whole, Rect.mem_set_unit]
  exact Iff.rfl

/-- Every index of the result is in the block of the point its sample belongs to. -/
theorem covered (i : S16384x72x216.Idx) :
    ∃ t : Fin cfg0.N, (cfg0.win 3).flush t = true ∧ i ∈ ((cfg0.win 3).blk t).view.set := by
  have hN : cfg0.N = 256 := N_0
  have hi0 : (i 0).val < 16384 := (i 0).isLt
  have hi1 : (i 1).val < 72 := (i 1).isLt
  have hi2 : (i 2).val < 216 := (i 2).isLt
  obtain ⟨t, ht⟩ : ∃ t : Fin cfg0.N, t.val = (i 0).val / 64 := ⟨⟨(i 0).val / 64, by omega⟩, rfl⟩
  obtain ⟨e0, e1, e2, -⟩ := block_index t
  refine ⟨t, flush0_3 t, ?_⟩
  rw [mem_block]
  intro a
  match a with
  | ⟨0, _⟩ =>
    show win0_3.index t (0 : Fin 3) * 64 ≤ (i 0).val ∧ (i 0).val < win0_3.index t (0 : Fin 3) * 64 + 64
    rw [e0]; omega
  | ⟨1, _⟩ =>
    show win0_3.index t (1 : Fin 3) * 72 ≤ (i 1).val ∧ (i 1).val < win0_3.index t (1 : Fin 3) * 72 + 72
    rw [e1]; omega
  | ⟨2, _⟩ =>
    show win0_3.index t (2 : Fin 3) * 216 ≤ (i 2).val ∧ (i 2).val < win0_3.index t (2 : Fin 3) * 216 + 216
    rw [e2]; omega

/-- THE LANE-MERGED RESULT after the run is the picture of the arrays as the region finds them. -/
theorem final (c : Dev nD) :
    (dats m 0 c).arrAt 3 cfg0.N = Paste.lanes (F := F) (V m c main_arg0) (V m c main_v2) (V m c main_v3) :=
  (dats m 0 c).arrAt_eq_of_cover 3 _ (fun t _ => flushed_eq m c t) covered

end Cert.KernelIdeal.PasteValue

end
-- ==== Proof.KernelHost.lean ====
/-
  What the kernel's two prepared operands hold when the region is entered.

  Before the launch the host lays the colours out lane by lane — colors [16384, 3] is viewed as
  [1, 16384, 1, 3], repeated 72 times along the third axis, and flattened to [16384, 216], so that lane
  l = 3 q + ch of sample B holds channel ch of its colour whatever the column q — and writes the table
  of 216 words whose entry l is the lane's column l / 3, viewed as one row [1, 216].
-/
import proofs.«113027_j27650999451648_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.PasteValue

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The lane-by-lane colours at the region's entry, as the host operations' term of the argument. -/
theorem V_tiled (c : Dev nD) :
    (V m c main_v2 : S16384x216.Idx → Elt F .f32)
      = shapeCast S16384x216
          (broadcastInDim S1x16384x72x3 ![0, 1, 2, 3] bcast_S1x16384x1x3_S1x16384x72x3_0_1_2_3
            (shapeCast S1x16384x1x3 (m ((c : Thread nD τ).loc main_arg1)) shapeCasts_S16384x3_S1x16384x1x3))
          shapeCasts_S1x16384x72x3_S16384x216 := by
  show StableHlo.after hostOps0 (fun b => m (c, b)) (Proc.devRef .tc main_v2) = _
  after_results
  rfl

/-- Lane 3 q + ch of sample B holds channel ch of the sample's colour. -/
theorem tiled_apply (c : Dev nD) (B : Fin 16384) (q : Fin 72) (ch : Fin 3) (l : Fin 216) (hl : l.val = 3 * q.val + ch.val) :
    (V m c main_v2 : S16384x216.Idx → Elt F .f32) (ix2 B l)
      = (m ((c : Thread nD τ).loc main_arg1) : S16384x3.Idx → Elt F .f32) (ix2 B ch) := by
  rw [V_tiled]
  refine (shapeCast_apply _ _ (ix2 B l) (ix4 (0 : Fin 1) B q ch) ?_).trans ?_
  · rw [Shape.rowMajor_val_four, Shape.rowMajor_val_two]
    show ((0 * 16384 + B.val) * 72 + q.val) * 3 + ch.val = B.val * 216 + l.val
    omega
  refine (broadcastInDim_apply _ _ _ (ix4 (0 : Fin 1) B q ch) (ix4 (0 : Fin 1) B (0 : Fin 1) ch) fun a => ?_).trans ?_
  · match a with
    | ⟨0, _⟩ => show 0 = if (1 : Nat) = 1 then 0 else 0; rw [if_pos rfl]
    | ⟨1, _⟩ => show B.val = if (16384 : Nat) = 1 then 0 else B.val; rw [if_neg (by decide)]
    | ⟨2, _⟩ => show 0 = if (1 : Nat) = 1 then 0 else q.val; rw [if_pos rfl]
    | ⟨3, _⟩ => show ch.val = if (3 : Nat) = 1 then 0 else ch.val; rw [if_neg (by decide)]
  exact shapeCast_apply _ _ (ix4 (0 : Fin 1) B (0 : Fin 1) ch) (ix2 B ch) (by
    rw [Shape.rowMajor_val_two, Shape.rowMajor_val_four]
    show B.val * 3 + ch.val = ((0 * 16384 + B.val) * 1 + 0) * 3 + ch.val
    omega)

/-- The table at the region's entry: the 216 literal words, as one row. -/
theorem V_table (c : Dev nD) :
    (V m c main_v3 : S1x216.Idx → Elt F .i32)
      = shapeCast S1x216 (fun i => lit0 (S216.rowMajor i)) shapeCasts_S216_S1x216 := by
  show StableHlo.after hostOps0 (fun b => m (c, b)) (Proc.devRef .tc main_v3) = _
  after_results
  rfl

/-- Entry l of the literal table is the word l / 3. -/
theorem lit0_column : ∀ x : Fin 216, lit0 x = BitVec.ofNat 32 (x.val / 3) := by decide +kernel

/-- The table sends lane 3 q + ch to column q. -/
theorem table_apply (c : Dev nD) (q : Fin 72) (ch : Fin 3) (l : Fin 216) (hl : l.val = 3 * q.val + ch.val) :
    (V m c main_v3 : S1x216.Idx → Elt F .i32) (ix2 (0 : Fin 1) l) = BitVec.ofNat 32 q.val := by
  rw [V_table]
  refine (shapeCast_a_1a_apply _ shapeCasts_S216_S1x216 (0 : Fin 1) l).trans ?_
  refine (lit0_column _).trans ?_
  rw [Shape.rowMajor_val_one]
  have hq : l.val / 3 = q.val := by have := ch.isLt; omega
  show BitVec.ofNat 32 (l.val / 3) = BitVec.ofNat 32 q.val
  rw [hq]

end Cert.KernelIdeal.PasteValue

end
-- ==== Proof.KernelRun.lean ====
/-
  The kernel program's run, read: its result is the pasted image of its two arguments.

  After the region the one remaining host line views the lane-merged result [16384, 72, 216] as
  [16384, 72, 72, 3]: element (b, r, q, ch) is element (b, r, 3 q + ch). There the table gives column q
  and the lane layout gives channel ch of sample b's colour, and `positions` reaches the region untouched,
  so the element is the canvas's pixel (r, q), channel ch, of sample b.
-/
import proofs.«113027_j27650999451648_2_alg».proof.Proof.KernelBlocks
import proofs.«113027_j27650999451648_2_alg».proof.Proof.KernelHost
import Idealize.ShloMosaic.Lib.StableHlo.Run

noncomputable section

namespace Cert.KernelIdeal.PasteValue

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The host line after the region views the region's result, the lane-merged picture, as [16384, 72, 72, 3]. -/
theorem tail_eq (c : Dev nD) :
    (Pipeline.afterTail₀ cfgs (dats m) 0 (V0 m) [hostOps1] c main_v5 : S16384x72x72x3.Idx → Elt F .f32)
      = shapeCast S16384x72x72x3 (Paste.lanes (F := F) (V m c main_arg0) (V m c main_v2) (V m c main_v3))
          shapeCasts_S16384x72x216_S16384x72x72x3 := by
  unfold Pipeline.afterTail₀
  show StableHlo.after hostOps1 _ (Proc.devRef .tc main_v5) = _
  after_results
  exact congrArg
    (fun x : S16384x72x216.Idx → Elt F .f32 => shapeCast S16384x72x72x3 x shapeCasts_S16384x72x216_S16384x72x72x3)
    ((Pipeline.withArrays_arr spec0 launch0.win.arr_inj c (V0 m c) (fun w => (dats m 0 c).arrAt w cfg0.N) 3).trans
      (final m c))

/-- Viewed as [16384, 72, 72, 3], the lane-merged picture of the region-entry arrays is the canvas of the arguments. -/
theorem view_eq (c : Dev nD) :
    shapeCast S16384x72x72x3 (Paste.lanes (F := F) (V m c main_arg0) (V m c main_v2) (V m c main_v3))
        shapeCasts_S16384x72x216_S16384x72x72x3
      = Paste.canvas (F := F) (m ((c : Thread nD τ).loc main_arg0)) (m ((c : Thread nD τ).loc main_arg1)) := by
  funext i
  obtain ⟨b, r, q, ch, rfl⟩ : ∃ (b : Fin 16384) (r q : Fin 72) (ch : Fin 3), i = ix4 b r q ch :=
    ⟨i 0, i 1, i 2, i 3, eq_ix4 i⟩
  have hl : 3 * q.val + ch.val < 216 := by have := q.isLt; have := ch.isLt; omega
  refine (shapeCast_apply _ _ (ix4 b r q ch) (ix3 b r (⟨3 * q.val + ch.val, hl⟩ : Fin 216)) ?_).trans ?_
  · rw [Shape.rowMajor_val_three, Shape.rowMajor_val_four]
    show (b.val * 72 + r.val) * 216 + (3 * q.val + ch.val) = ((b.val * 72 + r.val) * 72 + q.val) * 3 + ch.val
    omega
  rw [Paste.lanes_ix3, Paste.canvas_ix4, V_main_arg0]
  exact Paste.lanesAt_eq_canvasAt _ _ _ _ b r q ch _ (table_apply m c q ch _ rfl) (tiled_apply m c b q ch _ rfl)

/-- THE RUN: every weakly fair execution terminates with the result at the canvas of the arguments, which end unchanged. -/
theorem run : θ_run defs (onTc (τ := τ) (main (F := F))) ⟨m, fun _ => 0, ρ⟩ fun r => ∀ c : Dev nD,
      r.2.mem ((c : Thread nD τ).loc main_v5)
        = Paste.canvas (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans
          ((tail_eq m c).trans (view_eq m c)),
        ((h c).1 0).trans (((dats m 0 c).arrAt_in 0 rfl _).trans ((A_eq m c 0).trans (V_main_arg0 m c))),
        ((h c).2 main_arg1 (Pipeline.mem_restRefs_of main_arg1 (by decide) (by decide))).trans
          (W_main_arg1 m (dats m) c)⟩)
    (run_main m ρ)

end Cert.KernelIdeal.PasteValue

end
-- ==== Proof.RefCell.lean ====
/-
  The reference's result, one element at a time, is the pasted image.

  The reference slices the corner words out of `positions`, compares an iota of 72 coordinates with them to
  get a row mask and a column mask [16384, 72], broadcasts the two masks against each other and over the
  channels, broadcasts the colour over the pixels, and selects between it and the constant 255. Reading the
  result at (b, r, q, ch) through the generated one-operation-at-a-time lemmas leaves the pixel function of
  `positions` and `colors` at composed index maps; each composition is the entry one expects — the slices
  and reshapes pick (b, 0, 0), (b, 1, 0), (b, 0, 1), (b, 1, 1) of `positions` and (b, ch) of `colors`.
-/
import proofs.«113027_j27650999451648_2_alg».proof.Proof.Gen.ReferenceIdeal.Read
import proofs.«113027_j27650999451648_2_alg».proof.Proof.PasteSpec

noncomputable section

namespace Cert.ReferenceIdeal.PasteValue

open Idealize.ShloMosaic Idealize.ShloMosaic.ValueIdx
open Cert.ReferenceIdeal Cert.ReferenceIdeal.Read

variable {F : FTy → Type} [FloatOps F]

/-- The row mask's lower bound reads `positions[b, 0, 0]`. -/
theorem idx_tl_r (b : Fin 16384) (r q : Fin 72) (ch : Fin 3) :
    idx_main_v0 (idx_main_v1 (idx_main_v6 (idx_main_v8 (idx_main_v27 (idx_main_v29 (idx_main_v32
      (idx_main_call0_v0 (ix4 b r q ch)))))))) = ix3 b (0 : Fin 2) (0 : Fin 2) := by
  funext a; apply Fin.ext
  match a with
  | ⟨0, _⟩ => show (b.val * 2 + 0) / 2 = b.val; omega
  | ⟨1, _⟩ => rfl
  | ⟨2, _⟩ => show (b.val * 2 + 0) % 2 = 0; omega

/-- The row mask's upper bound reads `positions[b, 1, 0]`. -/
theorem idx_br_r (b : Fin 16384) (r q : Fin 72) (ch : Fin 3) :
    idx_main_v2 (idx_main_v3 (idx_main_v11 (idx_main_v13 (idx_main_v27 (idx_main_v29 (idx_main_v32
      (idx_main_call0_v0 (ix4 b r q ch)))))))) = ix3 b (1 : Fin 2) (0 : Fin 2) := by
  funext a; apply Fin.ext
  match a with
  | ⟨0, _⟩ => show (b.val * 2 + 0) / 2 = b.val; omega
  | ⟨1, _⟩ => rfl
  | ⟨2, _⟩ => show (b.val * 2 + 0) % 2 = 0; omega

/-- The column mask's lower bound reads `positions[b, 0, 1]`. -/
theorem idx_tl_c (b : Fin 16384) (r q : Fin 72) (ch : Fin 3) :
    idx_main_v0 (idx_main_v1 (idx_main_v17 (idx_main_v19 (idx_main_v28 (idx_main_v30 (idx_main_v32
      (idx_main_call0_v0 (ix4 b r q ch)))))))) = ix3 b (0 : Fin 2) (1 : Fin 2) := by
  funext a; apply Fin.ext
  match a with
  | ⟨0, _⟩ => show (b.val * 2 + (1 + 0)) / 2 = b.val; omega
  | ⟨1, _⟩ => rfl
  | ⟨2, _⟩ => show (b.val * 2 + (1 + 0)) % 2 = 1; omega

/-- The column mask's upper bound reads `positions[b, 1, 1]`. -/
theorem idx_br_c (b : Fin 16384) (r q : Fin 72) (ch : Fin 3) :
    idx_main_v2 (idx_main_v3 (idx_main_v22 (idx_main_v24 (idx_main_v28 (idx_main_v30 (idx_main_v32
      (idx_main_call0_v0 (ix4 b r q ch)))))))) = ix3 b (1 : Fin 2) (1 : Fin 2) := by
  funext a; apply Fin.ext
  match a with
  | ⟨0, _⟩ => show (b.val * 2 + (1 + 0)) / 2 = b.val; omega
  | ⟨1, _⟩ => rfl
  | ⟨2, _⟩ => show (b.val * 2 + (1 + 0)) % 2 = 1; omega

/-- The broadcast colour reads `colors[b, ch]`. -/
theorem idx_colour (b : Fin 16384) (r q : Fin 72) (ch : Fin 3) :
    idx_main_v33 (idx_main_call0_v1 (ix4 b r q ch)) = ix2 b ch := by
  funext a; apply Fin.ext
  match a with
  | ⟨0, _⟩ => rfl
  | ⟨1, _⟩ => rfl

/-- THE REFERENCE'S RESULT is the pasted image of its two arguments. -/
theorem reference_eq (x0 : (⟨S16384x2x2, .i32⟩ : BufTy).Contents (Elt F)) (x1 : (⟨S16384x3, .f32⟩ : BufTy).Contents (Elt F)) :
    val_main_v34 (F := F) x0 x1 = Paste.canvas (F := F) x0 x1 := by
  funext i
  obtain ⟨b, r, q, ch, rfl⟩ : ∃ (b : Fin 16384) (r q : Fin 72) (ch : Fin 3), i = ix4 b r q ch :=
    ⟨i 0, i 1, i 2, i 3, eq_ix4 i⟩
  rw [Paste.canvas_ix4]
  simp only [val_main_v34_apply, val_main_call0_v0_apply, val_main_call0_v1_apply, val_main_call0_v2_apply, val_main_cst_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply]
  rw [idx_tl_r, idx_br_r, idx_tl_c, idx_br_c, idx_colour]
  rfl

end Cert.ReferenceIdeal.PasteValue

end
-- ==== Proof.lean ====
/-
  Pasting a coloured rectangle into a 72 × 72 canvas, per sample: the kernel against its jnp reference.

  Both programs compute, for each of 16384 samples, the image whose pixel (r, q) holds the sample's colour
  when the row r and the column q lie inside the sample's rectangle — top-left corner inclusive, bottom-right
  corner exclusive, signed comparisons of 32-bit words — and the constant 255 elsewhere (`Paste.canvas`).
  The reference builds a row mask and a column mask from an iota of 72 coordinates, combines them and selects.
  The kernel works on 64 samples per grid point with the column and the channel merged into one axis of 216
  lanes: the host lays the colours out lane by lane and supplies a table of each lane's column, the body
  compares an iota of rows and the broadcast table with the broadcast corner words and selects, and a final
  host line splits the lanes back into (column, channel). No float is ever computed with — every element of
  either result is an element of `colors` or the constant — so the two results agree element by element for
  every input, and the precondition is not used. The idealized kernel is the kernel's own text read over the
  extended reals — no operation was rewritten — so `preserves` is trivial.

  The frames of the two kernel programs are the generated ones; the reference's frame is its generated run
  with the result dropped. The kernel's value is read off the generated frame run: the stored element
  (KernelCell), the blocks assembled into the array (KernelBlocks), the host's prepared operands (KernelHost),
  the final view (KernelRun). The reference's value is read through the generated one-operation lemmas (RefCell).
-/
import proofs.«113027_j27650999451648_2_alg».proof.Defs
import proofs.«113027_j27650999451648_2_alg».proof.Proof.Gen.Kernel
import proofs.«113027_j27650999451648_2_alg».proof.Proof.Gen.Kernel.Skeleton
import proofs.«113027_j27650999451648_2_alg».proof.Proof.Gen.Kernel.Launch
import proofs.«113027_j27650999451648_2_alg».proof.Proof.Gen.Kernel.Points
import proofs.«113027_j27650999451648_2_alg».proof.Proof.Gen.Kernel.Frame
import proofs.«113027_j27650999451648_2_alg».proof.Proof.Gen.KernelIdeal
import proofs.«113027_j27650999451648_2_alg».proof.Proof.Gen.KernelIdeal.Skeleton
import proofs.«113027_j27650999451648_2_alg».proof.Proof.Gen.KernelIdeal.Launch
import proofs.«113027_j27650999451648_2_alg».proof.Proof.Gen.KernelIdeal.Points
import proofs.«113027_j27650999451648_2_alg».proof.Proof.Gen.KernelIdeal.Frame
import proofs.«113027_j27650999451648_2_alg».proof.Proof.Gen.ReferenceIdeal
import proofs.«113027_j27650999451648_2_alg».proof.Proof.Gen.Pre_finite_inputs
import proofs.«113027_j27650999451648_2_alg».proof.Proof.Gen.ReferenceIdeal.Run
import proofs.«113027_j27650999451648_2_alg».proof.Proof.Gen.ReferenceIdeal.Read
import proofs.«113027_j27650999451648_2_alg».proof.Proof.KernelRun
import proofs.«113027_j27650999451648_2_alg».proof.Proof.RefCell
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both programs end with the pasted image of the arguments they agree on. -/
theorem algebraic : Cert.algebraic_KernelIdeal_ReferenceIdeal := by
  intro m ρ m' ρ' _ hagree
  refine ⟨_, Cert.KernelIdeal.PasteValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v34_eq _ _).trans (Cert.ReferenceIdeal.PasteValue.reference_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
